-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128x128 .f32) (main_arg11 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 92
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S128x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59_0 : Ref sig .tc := ⟨.hbm, 87, rfl⟩
abbrev main_v59_1 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v42_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v42_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v59_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S128x128, .f32⟩
  | .hbm, ⟨111, _⟩ => ⟨S50000x128, .f32⟩
  | .hbm, ⟨112, _⟩ => ⟨S128x128, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Payload0.lean ====
/-
  The body of the dense kernel of layer 0, read at one element of its output block.

  For a block of `p` rows, the stored value at `(p, q)` is the two products' entries — the sums over
  the 128 input features of the aggregated row times the first weight column and of the node's own
  row times the second — plus the bias entry `q`, plus the residual at `(p, q)`; the second stored
  value is its maximum with zero.  The narrowing to bf16 before the products is the identity on
  extended reals, and a product into the zero accumulator is the plain sum.
-/
import proofs.«152803_j35510789603342_1_alg».proof.Proof.Gen.KernelIdeal.Skeleton
import proofs.«152803_j35510789603342_1_alg».proof.Proof.LibDotRows
import Idealize.ShloMosaic.Lib.Pipeline.Value
import Idealize.ShloMosaic.Lib.ValueIdx

noncomputable section

open scoped BigOperators

namespace Cert.KernelIdeal.Body0

open Cert.KernelIdeal Cert.KernelIdeal.Gen Idealize.ShloMosaic Idealize.ShloMosaic.ValueIdx

/-- The first stored block (the layer's output) at `(p, q)`. -/
theorem pay1_at (x0 x1 : Vec Ideal S2000x128 .f32) (x2 x3 : Vec Ideal S128x128 .f32) (x4 : Vec Ideal S1x128 .f32)
    (x5 : Vec Ideal S2000x128 .f32) (p : Fin 2000) (q : Fin 128) :
    k0_pay1 (F := Ideal) x0 x1 x2 x3 x4 x5 (ix2 p q)
      = (((∑ k : Fin 128, x0 (ix2 p k) * x2 (ix2 k q)) + ∑ k : Fin 128, x1 (ix2 p k) * x3 (ix2 k q))
          + x4 (ix2 (0 : Fin 1) q)) + x5 (ix2 p q) := by
  unfold k0_pay1
  simp only [shapeCast_self]
  rw [addf_apply, addf_apply, addf_apply]
  have hA := matmul_zero_rows dot_S2000x128_S128x128_S2000x128_1_0_0_1_n_n none rfl rfl (fun _ _ => rfl) (fun _ _ => rfl)
    (fun _ _ => rfl) (fun _ _ => rfl) (truncf .bf16 x0 bitsLt_bf16_f32) (truncf .bf16 x2 bitsLt_bf16_f32) p q
  have hX := matmul_zero_rows dot_S2000x128_S128x128_S2000x128_1_0_0_1_n_n none rfl rfl (fun _ _ => rfl) (fun _ _ => rfl)
    (fun _ _ => rfl) (fun _ _ => rfl) (truncf .bf16 x1 bitsLt_bf16_f32) (truncf .bf16 x3 bitsLt_bf16_f32) p q
  have hb := broadcastTo_apply x4 broadcasts_S1x128_S2000x128 (ix2 p q) (ix2 (0 : Fin 1) q) (fun a => by
    match a with
    | ⟨0, _⟩ => rfl
    | ⟨1, _⟩ => rfl)
  exact congrArg₂ (· + ·) (congrArg₂ (· + ·) (congrArg₂ (· + ·) hA hX) hb) rfl

/-- The second stored block is the first's maximum with zero. -/
theorem pay2_at (x0 x1 : Vec Ideal S2000x128 .f32) (x2 x3 : Vec Ideal S128x128 .f32) (x4 : Vec Ideal S1x128 .f32)
    (x5 : Vec Ideal S2000x128 .f32) (j : S2000x128.Idx) :
    k0_pay2 (F := Ideal) x0 x1 x2 x3 x4 x5 j = max (k0_pay1 (F := Ideal) x0 x1 x2 x3 x4 x5 j) 0 := by
  unfold k0_pay2
  rw [maximumf_apply, broadcast_apply]
  exact congrArg (max _) Ideal.ofBits_zero_f32

end Cert.KernelIdeal.Body0

end
-- ==== Proof.LayerSpec.lean ====
/-
  One SAGE layer, as mathematics on the extended reals.

  For node features `X` and aggregated features `A` (both N × 128), weights read TRANSPOSED
  (`Wt (k, c)` is the weight from input feature `k` to output feature `c`), a bias row and a
  residual array `R`, the layer's output at `(r, c)` is

      ((Σₖ A (r, k) · Wt (k, c)) + (Σₖ X (r, k) · Ut (k, c)) + b c) + R (r, c),

  grouped exactly so.  `relu` is the maximum with zero.  Two scalar facts are kept here as well:
  a quotient by a nonzero `d` is the product with `1 / d` at every extended real (also at the
  infinities), and a maximum with one is never zero.
-/
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- Node features: 50000 nodes, 128 features. -/
abbrev SN : Shape := ⟨2, ![50000, 128]⟩
/-- A weight matrix. -/
abbrev SW : Shape := ⟨2, ![128, 128]⟩
/-- A bias as a row. -/
abbrev SB : Shape := ⟨2, ![1, 128]⟩

/-- The dense half of a layer with its residual, index by index. -/
def dense (A X : SN.Idx → EReal) (Wt Ut : SW.Idx → EReal) (b : SB.Idx → EReal) (R : SN.Idx → EReal) :
    SN.Idx → EReal := fun i =>
  (((∑ k : Fin 128, A (ix2 (i 0) k) * Wt (ix2 k (i 1))) + ∑ k : Fin 128, X (ix2 (i 0) k) * Ut (ix2 k (i 1)))
      + b (ix2 (0 : Fin 1) (i 1))) + R i

/-- The same without a residual. -/
def dense0 (A X : SN.Idx → EReal) (Wt Ut : SW.Idx → EReal) (b : SB.Idx → EReal) : SN.Idx → EReal := fun i =>
  ((∑ k : Fin 128, A (ix2 (i 0) k) * Wt (ix2 k (i 1))) + ∑ k : Fin 128, X (ix2 (i 0) k) * Ut (ix2 k (i 1)))
      + b (ix2 (0 : Fin 1) (i 1))

/-- The maximum with zero. -/
def relu (H : SN.Idx → EReal) : SN.Idx → EReal := fun i => max (H i) 0

/-- A layer whose residual is zero everywhere is the layer without a residual. -/
theorem dense_zero (A X : SN.Idx → EReal) (Wt Ut : SW.Idx → EReal) (b : SB.Idx → EReal) (R : SN.Idx → EReal)
    (hR : ∀ i, R i = 0) : dense A X Wt Ut b R = dense0 A X Wt Ut b := by
  funext i
  unfold dense dense0
  rw [hR i, add_zero]

/-- A layer with a residual is the layer without one, plus the residual. -/
theorem dense_eq_add (A X : SN.Idx → EReal) (Wt Ut : SW.Idx → EReal) (b : SB.Idx → EReal) (R : SN.Idx → EReal) (i : SN.Idx) :
    dense A X Wt Ut b R i = dense0 A X Wt Ut b i + R i := rfl

/-- The layer function at `i` from entries read at other names of the same places: the aggregated and the node row
    at `(i 0, k)`, the weight columns at `(k, i 1)`, the bias at `(0, i 1)`, the residual at `i`. -/
theorem dense_of_places (A X : SN.Idx → EReal) (Wt Ut : SW.Idx → EReal) (b : SB.Idx → EReal) (R : SN.Idx → EReal)
    (i : SN.Idx) (a x : Fin 128 → SN.Idx) (w u : Fin 128 → SW.Idx) (bi : SB.Idx) (ri : SN.Idx)
    (ha : ∀ k, a k = ix2 (i 0) k) (hx : ∀ k, x k = ix2 (i 0) k) (hw : ∀ k, w k = ix2 k (i 1))
    (hu : ∀ k, u k = ix2 k (i 1)) (hb : bi = ix2 (0 : Fin 1) (i 1)) (hr : ri = i) :
    (((∑ k : Fin 128, A (a k) * Wt (w k)) + ∑ k : Fin 128, X (x k) * Ut (u k)) + b bi) + R ri
      = dense A X Wt Ut b R i := by
  unfold dense
  simp only [ha, hx, hw, hu, hb, hr]
  rfl

/-- The product with the quotient `1 / d` is the quotient by `d`, for every nonzero `d`: off zero the
    quotient is the product with the inverse. -/
theorem mul_one_div (s d : EReal) (hd : d ≠ 0) : s * Ideal.div 1 d = Ideal.div s d := by
  unfold Ideal.div
  rw [if_neg hd, if_neg hd, one_mul]

/-- A maximum with one is at least one, so it is not zero. -/
theorem max_one_ne_zero (a : EReal) : max a 1 ≠ 0 := by
  have h : (0 : EReal) < max a 1 := lt_of_lt_of_le zero_lt_one (le_max_right a 1)
  exact ne_of_gt h

end Cert.Sage

end
-- ==== Proof.Region0.lean ====
/-
  What the dense kernel of layer 0 leaves in its two output arrays, as whole-array functions of the
  arrays it finds at its entry.

  The grid has 25 points; point `t` reads rows `2000 t … 2000 t + 1999` of the aggregated features,
  of the node features and of the residual, the two weight matrices and the bias row whole, and
  writes the same rows of both outputs.  So row `r` of an output is written by point `r / 2000`,
  the blocks tile the array, and the array ends holding, index by index, the layer function
  (`Cert.Sage.dense`) of the entry arrays; the second output is its maximum with zero.
-/
import proofs.«152803_j35510789603342_1_alg».proof.Proof.Gen.KernelIdeal.Frame
import proofs.«152803_j35510789603342_1_alg».proof.Proof.Payload0
import proofs.«152803_j35510789603342_1_alg».proof.Proof.LayerSpec
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output as a function of the entry arrays. -/
def H (c : Dev nD) : S50000x128.Idx → EReal :=
  Cert.Sage.dense (V c main_v21) (V c main_arg0) (V c main_v22) (V c main_v23) (V c main_v24) (V c main_v8)

/-- Its maximum with zero. -/
def Rl (c : Dev nD) : S50000x128.Idx → EReal := Cert.Sage.relu (H V c)

/-- The index maps over the grid: the row-blocked windows all sit at the output's row block and at column
    block 0, the weights and the bias at block (0, 0), and there are 25 row blocks. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = win0_6.index t (0 : Fin 2) ∧ win0_5.index t (1 : Fin 2) = 0
    ∧ win0_7.index t (0 : Fin 2) = win0_6.index t (0 : Fin 2) ∧ win0_7.index t (1 : Fin 2) = 0
    ∧ win0_6.index t (1 : Fin 2) = 0 ∧ win0_6.index t (0 : Fin 2) ≤ 24 :=
  (by decide +kernel : ∀ t : Fin grid0.N, _)

/-- Every row block is some point's. -/
theorem idx_onto : ∀ q0 : Fin 25, ∃ t : Fin cfg0.N, win0_6.index t = ![q0.val, 0] ∧ win0_7.index t = ![q0.val, 0] :=
  (by decide +kernel : ∀ q0 : Fin 25, ∃ t : Fin grid0.N, win0_6.index t = ![q0.val, 0] ∧ win0_7.index t = ![q0.val, 0])

/-- The body's first stored block at point `t`, element `(p, q)`, is the layer function at the element's place
    in the array. -/
theorem block_at (c : Dev nD) (t : Fin cfg0.N) (p : Fin 2000) (q : Fin 128) :
    k0_pay1 (F := Ideal) (iblk0 V c 0 t) (iblk0 V c 1 t) (iblk0 V c 2 t) (iblk0 V c 3 t) (iblk0 V c 4 t) (iblk0 V c 5 t) (ix2 p q)
      = H V c (((cfg0.win 6).blk t).view.emb (ix2 p q)) := by
  refine (Body0.pay1_at (iblk0 V c 0 t) (iblk0 V c 1 t) (iblk0 V c 2 t) (iblk0 V c 3 t) (iblk0 V c 4 t) (iblk0 V c 5 t) p q).trans ?_
  obtain ⟨e00, e01, e10, e11, e20, e21, e30, e31, e40, e41, e50, e51, e70, e71, e61, e6⟩ := idx_facts t
  have hp : p.val < 2000 := p.isLt
  have hq : q.val < 128 := q.isLt
  have hA : ∀ k : Fin 128, ((cfg0.win 0).blk t).view.emb (ix2 p k)
      = ix2 ((((cfg0.win 6).blk t).view.emb (ix2 p q)) 0) k := fun k => by
    have hk : k.val < 128 := k.isLt
    funext a; apply Fin.ext
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * k.val = k.val; omega
  have hX : ∀ k : Fin 128, ((cfg0.win 1).blk t).view.emb (ix2 p k)
      = ix2 ((((cfg0.win 6).blk t).view.emb (ix2 p q)) 0) k := fun k => by
    have hk : k.val < 128 := k.isLt
    funext a; apply Fin.ext
    match a with
    | ⟨0, _⟩ => show win0_1.index t (0 : Fin 2) * 2000 + 1 * p.val = win0_6.index t (0 : Fin 2) * 2000 + 1 * p.val; omega
    | ⟨1, _⟩ => show win0_1.index t (1 : Fin 2) * 128 + 1 * k.val = k.val; omega
  have hW : ∀ k : Fin 128, ((cfg0.win 2).blk t).view.emb (ix2 k q)
      = ix2 k ((((cfg0.win 6).blk t).view.emb (ix2 p q)) 1) := fun k => by
    have hk : k.val < 128 := k.isLt
    funext a; apply Fin.ext
    match a with
    | ⟨0, _⟩ => show win0_2.index t (0 : Fin 2) * 128 + 1 * k.val = k.val; omega
    | ⟨1, _⟩ => show win0_2.index t (1 : Fin 2) * 128 + 1 * q.val = win0_6.index t (1 : Fin 2) * 128 + 1 * q.val; omega
  have hU : ∀ k : Fin 128, ((cfg0.win 3).blk t).view.emb (ix2 k q)
      = ix2 k ((((cfg0.win 6).blk t).view.emb (ix2 p q)) 1) := fun k => by
    have hk : k.val < 128 := k.isLt
    funext a; apply Fin.ext
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  have hb : ((cfg0.win 4).blk t).view.emb (ix2 (0 : Fin 1) q)
      = ix2 (0 : Fin 1) ((((cfg0.win 6).blk t).view.emb (ix2 p q)) 1) := by
    funext a; apply Fin.ext
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  have hR : ((cfg0.win 5).blk t).view.emb (ix2 p q) = ((cfg0.win 6).blk t).view.emb (ix2 p q) := by
    funext a; apply Fin.ext
    match a with
    | ⟨0, _⟩ => show win0_5.index t (0 : Fin 2) * 2000 + 1 * p.val = win0_6.index t (0 : Fin 2) * 2000 + 1 * p.val; omega
    | ⟨1, _⟩ => show win0_5.index t (1 : Fin 2) * 128 + 1 * q.val = win0_6.index t (1 : Fin 2) * 128 + 1 * q.val; omega
  exact Cert.Sage.dense_of_places (V c main_v21) (V c main_arg0) (V c main_v22) (V c main_v23) (V c main_v24) (V c main_v8)
    (((cfg0.win 6).blk t).view.emb (ix2 p q))
    (fun k => ((cfg0.win 0).blk t).view.emb (ix2 p k)) (fun k => ((cfg0.win 1).blk t).view.emb (ix2 p k))
    (fun k => ((cfg0.win 2).blk t).view.emb (ix2 k q)) (fun k => ((cfg0.win 3).blk t).view.emb (ix2 k q))
    (((cfg0.win 4).blk t).view.emb (ix2 (0 : Fin 1) q)) (((cfg0.win 5).blk t).view.emb (ix2 p q))
    hA hX hW hU hb hR

/-- What point `t` writes back to the first output is block `t` of the layer function. -/
theorem flushed6_eq (c : Dev nD) (t : Fin cfg0.N) :
    (dat0 V c).flushed 6 t = ((cfg0.win 6).blk t).view.read (Elt Ideal) (H V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact block_at V c t p q

/-- What point `t` writes back to the second output is block `t` of its maximum with zero. -/
theorem flushed7_eq (c : Dev nD) (t : Fin cfg0.N) :
    (dat0 V c).flushed 7 t = ((cfg0.win 7).blk t).view.read (Elt Ideal) (Rl V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨e00, e01, e10, e11, e20, e21, e30, e31, e40, e41, e50, e51, e70, e71, e61, e6⟩ := idx_facts t
  have h76 : ((cfg0.win 7).blk t).view.emb (ix2 p q) = ((cfg0.win 6).blk t).view.emb (ix2 p q) := by
    funext a; apply Fin.ext
    match a with
    | ⟨0, _⟩ => show win0_7.index t (0 : Fin 2) * 2000 + 1 * p.val = win0_6.index t (0 : Fin 2) * 2000 + 1 * p.val; omega
    | ⟨1, _⟩ => show win0_7.index t (1 : Fin 2) * 128 + 1 * q.val = win0_6.index t (1 : Fin 2) * 128 + 1 * q.val; omega
  refine (Body0.pay2_at (iblk0 V c 0 t) (iblk0 V c 1 t) (iblk0 V c 2 t) (iblk0 V c 3 t) (iblk0 V c 4 t) (iblk0 V c 5 t) (ix2 p q)).trans ?_
  show max _ 0 = max (H V c (((cfg0.win 7).blk t).view.emb (ix2 p q))) 0
  rw [block_at V c t p q, h76]

/-- An index is in point `t`'s block of the first output iff each coordinate is in the block's range. -/
theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v25_0).slice (win0_6.rect t)).set ↔ _
  rw [View.set_slice_whole, Rect.mem_set_unit]
  exact Iff.rfl

/-- The same for the second output. -/
theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v25_1).slice (win0_7.rect t)).set ↔ _
  rw [View.set_slice_whole, Rect.mem_set_unit]
  exact Iff.rfl

/-- Row `r` is in the block of the point whose row block is `r / 2000`: the blocks cover the first output. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht, -⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- And the second. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, -, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The first output array after the region: the layer function of the entry arrays. -/
theorem arr6 (c : Dev nD) : (dat0 V c).arrAt 6 cfg0.N = H V c :=
  (dat0 V c).arrAt_eq_of_cover 6 (H V c) (fun t _ => flushed6_eq V c t) cover6

/-- The second output array after the region: its maximum with zero. -/
theorem arr7 (c : Dev nD) : (dat0 V c).arrAt 7 cfg0.N = Rl V c :=
  (dat0 V c).arrAt_eq_of_cover 7 (Rl V c) (fun t _ => flushed7_eq V c t) cover7

end Cert.KernelIdeal.Region0

end
-- ==== Proof.Payload1.lean ====
/-
  The body of the dense kernel of layer 1, read at one element of its output block.

  For a block of `p` rows, the stored value at `(p, q)` is the two products' entries — the sums over
  the 128 input features of the aggregated row times the first weight column and of the node's own
  row times the second — plus the bias entry `q`, plus the residual at `(p, q)`; the second stored
  value is its maximum with zero.  The narrowing to bf16 before the products is the identity on
  extended reals, and a product into the zero accumulator is the plain sum.
-/
import proofs.«152803_j35510789603342_1_alg».proof.Proof.Gen.KernelIdeal.Skeleton
import proofs.«152803_j35510789603342_1_alg».proof.Proof.LibDotRows
import Idealize.ShloMosaic.Lib.Pipeline.Value
import Idealize.ShloMosaic.Lib.ValueIdx

noncomputable section

open scoped BigOperators

namespace Cert.KernelIdeal.Body1

open Cert.KernelIdeal Cert.KernelIdeal.Gen Idealize.ShloMosaic Idealize.ShloMosaic.ValueIdx

/-- The first stored block (the layer's output) at `(p, q)`. -/
theorem pay1_at (x0 x1 : Vec Ideal S2000x128 .f32) (x2 x3 : Vec Ideal S128x128 .f32) (x4 : Vec Ideal S1x128 .f32)
    (x5 : Vec Ideal S2000x128 .f32) (p : Fin 2000) (q : Fin 128) :
    k1_pay1 (F := Ideal) x0 x1 x2 x3 x4 x5 (ix2 p q)
      = (((∑ k : Fin 128, x0 (ix2 p k) * x2 (ix2 k q)) + ∑ k : Fin 128, x1 (ix2 p k) * x3 (ix2 k q))
          + x4 (ix2 (0 : Fin 1) q)) + x5 (ix2 p q) := by
  unfold k1_pay1
  simp only [shapeCast_self]
  rw [addf_apply, addf_apply, addf_apply]
  have hA := matmul_zero_rows dot_S2000x128_S128x128_S2000x128_1_0_0_1_n_n none rfl rfl (fun _ _ => rfl) (fun _ _ => rfl)
    (fun _ _ => rfl) (fun _ _ => rfl) (truncf .bf16 x0 bitsLt_bf16_f32) (truncf .bf16 x2 bitsLt_bf16_f32) p q
  have hX := matmul_zero_rows dot_S2000x128_S128x128_S2000x128_1_0_0_1_n_n none rfl rfl (fun _ _ => rfl) (fun _ _ => rfl)
    (fun _ _ => rfl) (fun _ _ => rfl) (truncf .bf16 x1 bitsLt_bf16_f32) (truncf .bf16 x3 bitsLt_bf16_f32) p q
  have hb := broadcastTo_apply x4 broadcasts_S1x128_S2000x128 (ix2 p q) (ix2 (0 : Fin 1) q) (fun a => by
    match a with
    | ⟨0, _⟩ => rfl
    | ⟨1, _⟩ => rfl)
  exact congrArg₂ (· + ·) (congrArg₂ (· + ·) (congrArg₂ (· + ·) hA hX) hb) rfl

/-- The second stored block is the first's maximum with zero. -/
theorem pay2_at (x0 x1 : Vec Ideal S2000x128 .f32) (x2 x3 : Vec Ideal S128x128 .f32) (x4 : Vec Ideal S1x128 .f32)
    (x5 : Vec Ideal S2000x128 .f32) (j : S2000x128.Idx) :
    k1_pay2 (F := Ideal) x0 x1 x2 x3 x4 x5 j = max (k1_pay1 (F := Ideal) x0 x1 x2 x3 x4 x5 j) 0 := by
  unfold k1_pay2
  rw [maximumf_apply, broadcast_apply]
  exact congrArg (max _) Ideal.ofBits_zero_f32

end Cert.KernelIdeal.Body1

end
-- ==== Proof.Region1.lean ====
/-
  What the dense kernel of layer 1 leaves in its two output arrays, as whole-array functions of the
  arrays it finds at its entry.

  The grid has 25 points; point `t` reads rows `2000 t … 2000 t + 1999` of the aggregated features,
  of the node features and of the residual, the two weight matrices and the bias row whole, and
  writes the same rows of both outputs.  So row `r` of an output is written by point `r / 2000`,
  the blocks tile the array, and the array ends holding, index by index, the layer function
  (`Cert.Sage.dense`) of the entry arrays; the second output is its maximum with zero.
-/
import proofs.«152803_j35510789603342_1_alg».proof.Proof.Gen.KernelIdeal.Frame
import proofs.«152803_j35510789603342_1_alg».proof.Proof.Payload1
import proofs.«152803_j35510789603342_1_alg».proof.Proof.LayerSpec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output as a function of the entry arrays. -/
def H (c : Dev nD) : S50000x128.Idx → EReal :=
  Cert.Sage.dense (V c main_v38) (V c main_v25_1) (V c main_v39) (V c main_v40) (V c main_v41) (V c main_v25_0)

/-- Its maximum with zero. -/
def Rl (c : Dev nD) : S50000x128.Idx → EReal := Cert.Sage.relu (H V c)

/-- The index maps over the grid: the row-blocked windows all sit at the output's row block and at column
    block 0, the weights and the bias at block (0, 0), and there are 25 row blocks. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = win1_6.index t (0 : Fin 2) ∧ win1_5.index t (1 : Fin 2) = 0
    ∧ win1_7.index t (0 : Fin 2) = win1_6.index t (0 : Fin 2) ∧ win1_7.index t (1 : Fin 2) = 0
    ∧ win1_6.index t (1 : Fin 2) = 0 ∧ win1_6.index t (0 : Fin 2) ≤ 24 :=
  (by decide +kernel : ∀ t : Fin grid1.N, _)

/-- Every row block is some point's. -/
theorem idx_onto : ∀ q0 : Fin 25, ∃ t : Fin cfg1.N, win1_6.index t = ![q0.val, 0] ∧ win1_7.index t = ![q0.val, 0] :=
  (by decide +kernel : ∀ q0 : Fin 25, ∃ t : Fin grid1.N, win1_6.index t = ![q0.val, 0] ∧ win1_7.index t = ![q0.val, 0])

/-- The body's first stored block at point `t`, element `(p, q)`, is the layer function at the element's place
    in the array. -/
theorem block_at (c : Dev nD) (t : Fin cfg1.N) (p : Fin 2000) (q : Fin 128) :
    k1_pay1 (F := Ideal) (iblk1 V c 0 t) (iblk1 V c 1 t) (iblk1 V c 2 t) (iblk1 V c 3 t) (iblk1 V c 4 t) (iblk1 V c 5 t) (ix2 p q)
      = H V c (((cfg1.win 6).blk t).view.emb (ix2 p q)) := by
  refine (Body1.pay1_at (iblk1 V c 0 t) (iblk1 V c 1 t) (iblk1 V c 2 t) (iblk1 V c 3 t) (iblk1 V c 4 t) (iblk1 V c 5 t) p q).trans ?_
  obtain ⟨e00, e01, e10, e11, e20, e21, e30, e31, e40, e41, e50, e51, e70, e71, e61, e6⟩ := idx_facts t
  have hp : p.val < 2000 := p.isLt
  have hq : q.val < 128 := q.isLt
  have hA : ∀ k : Fin 128, ((cfg1.win 0).blk t).view.emb (ix2 p k)
      = ix2 ((((cfg1.win 6).blk t).view.emb (ix2 p q)) 0) k := fun k => by
    have hk : k.val < 128 := k.isLt
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * k.val = k.val; omega
  have hX : ∀ k : Fin 128, ((cfg1.win 1).blk t).view.emb (ix2 p k)
      = ix2 ((((cfg1.win 6).blk t).view.emb (ix2 p q)) 0) k := fun k => by
    have hk : k.val < 128 := k.isLt
    funext a; apply Fin.ext
    match a with
    | ⟨0, _⟩ => show win1_1.index t (0 : Fin 2) * 2000 + 1 * p.val = win1_6.index t (0 : Fin 2) * 2000 + 1 * p.val; omega
    | ⟨1, _⟩ => show win1_1.index t (1 : Fin 2) * 128 + 1 * k.val = k.val; omega
  have hW : ∀ k : Fin 128, ((cfg1.win 2).blk t).view.emb (ix2 k q)
      = ix2 k ((((cfg1.win 6).blk t).view.emb (ix2 p q)) 1) := fun k => by
    have hk : k.val < 128 := k.isLt
    funext a; apply Fin.ext
    match a with
    | ⟨0, _⟩ => show win1_2.index t (0 : Fin 2) * 128 + 1 * k.val = k.val; omega
    | ⟨1, _⟩ => show win1_2.index t (1 : Fin 2) * 128 + 1 * q.val = win1_6.index t (1 : Fin 2) * 128 + 1 * q.val; omega
  have hU : ∀ k : Fin 128, ((cfg1.win 3).blk t).view.emb (ix2 k q)
      = ix2 k ((((cfg1.win 6).blk t).view.emb (ix2 p q)) 1) := fun k => by
    have hk : k.val < 128 := k.isLt
    funext a; apply Fin.ext
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  have hb : ((cfg1.win 4).blk t).view.emb (ix2 (0 : Fin 1) q)
      = ix2 (0 : Fin 1) ((((cfg1.win 6).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have hR : ((cfg1.win 5).blk t).view.emb (ix2 p q) = ((cfg1.win 6).blk t).view.emb (ix2 p q) := by
    funext a; apply Fin.ext
    match a with
    | ⟨0, _⟩ => show win1_5.index t (0 : Fin 2) * 2000 + 1 * p.val = win1_6.index t (0 : Fin 2) * 2000 + 1 * p.val; omega
    | ⟨1, _⟩ => show win1_5.index t (1 : Fin 2) * 128 + 1 * q.val = win1_6.index t (1 : Fin 2) * 128 + 1 * q.val; omega
  exact Cert.Sage.dense_of_places (V c main_v38) (V c main_v25_1) (V c main_v39) (V c main_v40) (V c main_v41) (V c main_v25_0)
    (((cfg1.win 6).blk t).view.emb (ix2 p q))
    (fun k => ((cfg1.win 0).blk t).view.emb (ix2 p k)) (fun k => ((cfg1.win 1).blk t).view.emb (ix2 p k))
    (fun k => ((cfg1.win 2).blk t).view.emb (ix2 k q)) (fun k => ((cfg1.win 3).blk t).view.emb (ix2 k q))
    (((cfg1.win 4).blk t).view.emb (ix2 (0 : Fin 1) q)) (((cfg1.win 5).blk t).view.emb (ix2 p q))
    hA hX hW hU hb hR

/-- What point `t` writes back to the first output is block `t` of the layer function. -/
theorem flushed6_eq (c : Dev nD) (t : Fin cfg1.N) :
    (dat1 V c).flushed 6 t = ((cfg1.win 6).blk t).view.read (Elt Ideal) (H V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact block_at V c t p q

/-- What point `t` writes back to the second output is block `t` of its maximum with zero. -/
theorem flushed7_eq (c : Dev nD) (t : Fin cfg1.N) :
    (dat1 V c).flushed 7 t = ((cfg1.win 7).blk t).view.read (Elt Ideal) (Rl V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨e00, e01, e10, e11, e20, e21, e30, e31, e40, e41, e50, e51, e70, e71, e61, e6⟩ := idx_facts t
  have h76 : ((cfg1.win 7).blk t).view.emb (ix2 p q) = ((cfg1.win 6).blk t).view.emb (ix2 p q) := by
    funext a; apply Fin.ext
    match a with
    | ⟨0, _⟩ => show win1_7.index t (0 : Fin 2) * 2000 + 1 * p.val = win1_6.index t (0 : Fin 2) * 2000 + 1 * p.val; omega
    | ⟨1, _⟩ => show win1_7.index t (1 : Fin 2) * 128 + 1 * q.val = win1_6.index t (1 : Fin 2) * 128 + 1 * q.val; omega
  refine (Body1.pay2_at (iblk1 V c 0 t) (iblk1 V c 1 t) (iblk1 V c 2 t) (iblk1 V c 3 t) (iblk1 V c 4 t) (iblk1 V c 5 t) (ix2 p q)).trans ?_
  show max _ 0 = max (H V c (((cfg1.win 7).blk t).view.emb (ix2 p q))) 0
  rw [block_at V c t p q, h76]

/-- An index is in point `t`'s block of the first output iff each coordinate is in the block's range. -/
theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v42_0).slice (win1_6.rect t)).set ↔ _
  rw [View.set_slice_whole, Rect.mem_set_unit]
  exact Iff.rfl

/-- The same for the second output. -/
theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v42_1).slice (win1_7.rect t)).set ↔ _
  rw [View.set_slice_whole, Rect.mem_set_unit]
  exact Iff.rfl

/-- Row `r` is in the block of the point whose row block is `r / 2000`: the blocks cover the first output. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht, -⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- And the second. -/
theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, -, ht⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The first output array after the region: the layer function of the entry arrays. -/
theorem arr6 (c : Dev nD) : (dat1 V c).arrAt 6 cfg1.N = H V c :=
  (dat1 V c).arrAt_eq_of_cover 6 (H V c) (fun t _ => flushed6_eq V c t) cover6

/-- The second output array after the region: its maximum with zero. -/
theorem arr7 (c : Dev nD) : (dat1 V c).arrAt 7 cfg1.N = Rl V c :=
  (dat1 V c).arrAt_eq_of_cover 7 (Rl V c) (fun t _ => flushed7_eq V c t) cover7

end Cert.KernelIdeal.Region1

end
-- ==== Proof.Payload2.lean ====
/-
  The body of the dense kernel of layer 2, read at one element of its output block.

  For a block of `p` rows, the stored value at `(p, q)` is the two products' entries — the sums over
  the 128 input features of the aggregated row times the first weight column and of the node's own
  row times the second — plus the bias entry `q`, plus the residual at `(p, q)`; the second stored
  value is its maximum with zero.  The narrowing to bf16 before the products is the identity on
  extended reals, and a product into the zero accumulator is the plain sum.
-/
import proofs.«152803_j35510789603342_1_alg».proof.Proof.Gen.KernelIdeal.Skeleton
import proofs.«152803_j35510789603342_1_alg».proof.Proof.LibDotRows
import Idealize.ShloMosaic.Lib.Pipeline.Value
import Idealize.ShloMosaic.Lib.ValueIdx

noncomputable section

open scoped BigOperators

namespace Cert.KernelIdeal.Body2

open Cert.KernelIdeal Cert.KernelIdeal.Gen Idealize.ShloMosaic Idealize.ShloMosaic.ValueIdx

/-- The first stored block (the layer's output) at `(p, q)`. -/
theorem pay1_at (x0 x1 : Vec Ideal S2000x128 .f32) (x2 x3 : Vec Ideal S128x128 .f32) (x4 : Vec Ideal S1x128 .f32)
    (x5 : Vec Ideal S2000x128 .f32) (p : Fin 2000) (q : Fin 128) :
    k2_pay1 (F := Ideal) x0 x1 x2 x3 x4 x5 (ix2 p q)
      = (((∑ k : Fin 128, x0 (ix2 p k) * x2 (ix2 k q)) + ∑ k : Fin 128, x1 (ix2 p k) * x3 (ix2 k q))
          + x4 (ix2 (0 : Fin 1) q)) + x5 (ix2 p q) := by
  unfold k2_pay1
  simp only [shapeCast_self]
  rw [addf_apply, addf_apply, addf_apply]
  have hA := matmul_zero_rows dot_S2000x128_S128x128_S2000x128_1_0_0_1_n_n none rfl rfl (fun _ _ => rfl) (fun _ _ => rfl)
    (fun _ _ => rfl) (fun _ _ => rfl) (truncf .bf16 x0 bitsLt_bf16_f32) (truncf .bf16 x2 bitsLt_bf16_f32) p q
  have hX := matmul_zero_rows dot_S2000x128_S128x128_S2000x128_1_0_0_1_n_n none rfl rfl (fun _ _ => rfl) (fun _ _ => rfl)
    (fun _ _ => rfl) (fun _ _ => rfl) (truncf .bf16 x1 bitsLt_bf16_f32) (truncf .bf16 x3 bitsLt_bf16_f32) p q
  have hb := broadcastTo_apply x4 broadcasts_S1x128_S2000x128 (ix2 p q) (ix2 (0 : Fin 1) q) (fun a => by
    match a with
    | ⟨0, _⟩ => rfl
    | ⟨1, _⟩ => rfl)
  exact congrArg₂ (· + ·) (congrArg₂ (· + ·) (congrArg₂ (· + ·) hA hX) hb) rfl

/-- The second stored block is the first's maximum with zero. -/
theorem pay2_at (x0 x1 : Vec Ideal S2000x128 .f32) (x2 x3 : Vec Ideal S128x128 .f32) (x4 : Vec Ideal S1x128 .f32)
    (x5 : Vec Ideal S2000x128 .f32) (j : S2000x128.Idx) :
    k2_pay2 (F := Ideal) x0 x1 x2 x3 x4 x5 j = max (k2_pay1 (F := Ideal) x0 x1 x2 x3 x4 x5 j) 0 := by
  unfold k2_pay2
  rw [maximumf_apply, broadcast_apply]
  exact congrArg (max _) Ideal.ofBits_zero_f32

end Cert.KernelIdeal.Body2

end
-- ==== Proof.Region2.lean ====
/-
  What the dense kernel of layer 2 leaves in its two output arrays, as whole-array functions of the
  arrays it finds at its entry.

  The grid has 25 points; point `t` reads rows `2000 t … 2000 t + 1999` of the aggregated features,
  of the node features and of the residual, the two weight matrices and the bias row whole, and
  writes the same rows of both outputs.  So row `r` of an output is written by point `r / 2000`,
  the blocks tile the array, and the array ends holding, index by index, the layer function
  (`Cert.Sage.dense`) of the entry arrays; the second output is its maximum with zero.
-/
import proofs.«152803_j35510789603342_1_alg».proof.Proof.Gen.KernelIdeal.Frame
import proofs.«152803_j35510789603342_1_alg».proof.Proof.Payload2
import proofs.«152803_j35510789603342_1_alg».proof.Proof.LayerSpec
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output as a function of the entry arrays. -/
def H (c : Dev nD) : S50000x128.Idx → EReal :=
  Cert.Sage.dense (V c main_v55) (V c main_v42_1) (V c main_v56) (V c main_v57) (V c main_v58) (V c main_v42_0)

/-- Its maximum with zero. -/
def Rl (c : Dev nD) : S50000x128.Idx → EReal := Cert.Sage.relu (H V c)

/-- The index maps over the grid: the row-blocked windows all sit at the output's row block and at column
    block 0, the weights and the bias at block (0, 0), and there are 25 row blocks. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = win2_6.index t (0 : Fin 2) ∧ win2_5.index t (1 : Fin 2) = 0
    ∧ win2_7.index t (0 : Fin 2) = win2_6.index t (0 : Fin 2) ∧ win2_7.index t (1 : Fin 2) = 0
    ∧ win2_6.index t (1 : Fin 2) = 0 ∧ win2_6.index t (0 : Fin 2) ≤ 24 :=
  (by decide +kernel : ∀ t : Fin grid2.N, _)

/-- Every row block is some point's. -/
theorem idx_onto : ∀ q0 : Fin 25, ∃ t : Fin cfg2.N, win2_6.index t = ![q0.val, 0] ∧ win2_7.index t = ![q0.val, 0] :=
  (by decide +kernel : ∀ q0 : Fin 25, ∃ t : Fin grid2.N, win2_6.index t = ![q0.val, 0] ∧ win2_7.index t = ![q0.val, 0])

/-- The body's first stored block at point `t`, element `(p, q)`, is the layer function at the element's place
    in the array. -/
theorem block_at (c : Dev nD) (t : Fin cfg2.N) (p : Fin 2000) (q : Fin 128) :
    k2_pay1 (F := Ideal) (iblk2 V c 0 t) (iblk2 V c 1 t) (iblk2 V c 2 t) (iblk2 V c 3 t) (iblk2 V c 4 t) (iblk2 V c 5 t) (ix2 p q)
      = H V c (((cfg2.win 6).blk t).view.emb (ix2 p q)) := by
  refine (Body2.pay1_at (iblk2 V c 0 t) (iblk2 V c 1 t) (iblk2 V c 2 t) (iblk2 V c 3 t) (iblk2 V c 4 t) (iblk2 V c 5 t) p q).trans ?_
  obtain ⟨e00, e01, e10, e11, e20, e21, e30, e31, e40, e41, e50, e51, e70, e71, e61, e6⟩ := idx_facts t
  have hp : p.val < 2000 := p.isLt
  have hq : q.val < 128 := q.isLt
  have hA : ∀ k : Fin 128, ((cfg2.win 0).blk t).view.emb (ix2 p k)
      = ix2 ((((cfg2.win 6).blk t).view.emb (ix2 p q)) 0) k := fun k => by
    have hk : k.val < 128 := k.isLt
    funext a; apply Fin.ext
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * k.val = k.val; omega
  have hX : ∀ k : Fin 128, ((cfg2.win 1).blk t).view.emb (ix2 p k)
      = ix2 ((((cfg2.win 6).blk t).view.emb (ix2 p q)) 0) k := fun k => by
    have hk : k.val < 128 := k.isLt
    funext a; apply Fin.ext
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * k.val = k.val; omega
  have hW : ∀ k : Fin 128, ((cfg2.win 2).blk t).view.emb (ix2 k q)
      = ix2 k ((((cfg2.win 6).blk t).view.emb (ix2 p q)) 1) := fun k => by
    have hk : k.val < 128 := k.isLt
    funext a; apply Fin.ext
    match a with
    | ⟨0, _⟩ => show win2_2.index t (0 : Fin 2) * 128 + 1 * k.val = k.val; omega
    | ⟨1, _⟩ => show win2_2.index t (1 : Fin 2) * 128 + 1 * q.val = win2_6.index t (1 : Fin 2) * 128 + 1 * q.val; omega
  have hU : ∀ k : Fin 128, ((cfg2.win 3).blk t).view.emb (ix2 k q)
      = ix2 k ((((cfg2.win 6).blk t).view.emb (ix2 p q)) 1) := fun k => by
    have hk : k.val < 128 := k.isLt
    funext a; apply Fin.ext
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  have hb : ((cfg2.win 4).blk t).view.emb (ix2 (0 : Fin 1) q)
      = ix2 (0 : Fin 1) ((((cfg2.win 6).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_6.index t (1 : Fin 2) * 128 + 1 * q.val; omega
  have hR : ((cfg2.win 5).blk t).view.emb (ix2 p q) = ((cfg2.win 6).blk t).view.emb (ix2 p q) := by
    funext a; apply Fin.ext
    match a with
    | ⟨0, _⟩ => show win2_5.index t (0 : Fin 2) * 2000 + 1 * p.val = win2_6.index t (0 : Fin 2) * 2000 + 1 * p.val; omega
    | ⟨1, _⟩ => show win2_5.index t (1 : Fin 2) * 128 + 1 * q.val = win2_6.index t (1 : Fin 2) * 128 + 1 * q.val; omega
  exact Cert.Sage.dense_of_places (V c main_v55) (V c main_v42_1) (V c main_v56) (V c main_v57) (V c main_v58) (V c main_v42_0)
    (((cfg2.win 6).blk t).view.emb (ix2 p q))
    (fun k => ((cfg2.win 0).blk t).view.emb (ix2 p k)) (fun k => ((cfg2.win 1).blk t).view.emb (ix2 p k))
    (fun k => ((cfg2.win 2).blk t).view.emb (ix2 k q)) (fun k => ((cfg2.win 3).blk t).view.emb (ix2 k q))
    (((cfg2.win 4).blk t).view.emb (ix2 (0 : Fin 1) q)) (((cfg2.win 5).blk t).view.emb (ix2 p q))
    hA hX hW hU hb hR

/-- What point `t` writes back to the first output is block `t` of the layer function. -/
theorem flushed6_eq (c : Dev nD) (t : Fin cfg2.N) :
    (dat2 V c).flushed 6 t = ((cfg2.win 6).blk t).view.read (Elt Ideal) (H V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact block_at V c t p q

/-- What point `t` writes back to the second output is block `t` of its maximum with zero. -/
theorem flushed7_eq (c : Dev nD) (t : Fin cfg2.N) :
    (dat2 V c).flushed 7 t = ((cfg2.win 7).blk t).view.read (Elt Ideal) (Rl V c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨e00, e01, e10, e11, e20, e21, e30, e31, e40, e41, e50, e51, e70, e71, e61, e6⟩ := idx_facts t
  have h76 : ((cfg2.win 7).blk t).view.emb (ix2 p q) = ((cfg2.win 6).blk t).view.emb (ix2 p q) := by
    funext a; apply Fin.ext
    match a with
    | ⟨0, _⟩ => show win2_7.index t (0 : Fin 2) * 2000 + 1 * p.val = win2_6.index t (0 : Fin 2) * 2000 + 1 * p.val; omega
    | ⟨1, _⟩ => show win2_7.index t (1 : Fin 2) * 128 + 1 * q.val = win2_6.index t (1 : Fin 2) * 128 + 1 * q.val; omega
  refine (Body2.pay2_at (iblk2 V c 0 t) (iblk2 V c 1 t) (iblk2 V c 2 t) (iblk2 V c 3 t) (iblk2 V c 4 t) (iblk2 V c 5 t) (ix2 p q)).trans ?_
  show max _ 0 = max (H V c (((cfg2.win 7).blk t).view.emb (ix2 p q))) 0
  rw [block_at V c t p q, h76]

/-- An index is in point `t`'s block of the first output iff each coordinate is in the block's range. -/
theorem mem_blk6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v59_0).slice (win2_6.rect t)).set ↔ _
  rw [View.set_slice_whole, Rect.mem_set_unit]
  exact Iff.rfl

/-- The same for the second output. -/
theorem mem_blk7 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v59_1).slice (win2_7.rect t)).set ↔ _
  rw [View.set_slice_whole, Rect.mem_set_unit]
  exact Iff.rfl

/-- Row `r` is in the block of the point whose row block is `r / 2000`: the blocks cover the first output. -/
theorem cover6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht, -⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- And the second. -/
theorem cover7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, -, ht⟩ := idx_onto ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_blk7]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- The first output array after the region: the layer function of the entry arrays. -/
theorem arr6 (c : Dev nD) : (dat2 V c).arrAt 6 cfg2.N = H V c :=
  (dat2 V c).arrAt_eq_of_cover 6 (H V c) (fun t _ => flushed6_eq V c t) cover6

/-- The second output array after the region: its maximum with zero. -/
theorem arr7 (c : Dev nD) : (dat2 V c).arrAt 7 cfg2.N = Rl V c :=
  (dat2 V c).arrAt_eq_of_cover 7 (Rl V c) (fun t _ => flushed7_eq V c t) cover7

end Cert.KernelIdeal.Region2

end
-- ==== Proof.KStages.lean ====
/-
  The kernel program's host operations, read stage by stage.

  Between the launch and the first dense kernel the host computes the inverse degree
  `1 / max (deg, 1)` of every node (`deg` the number of edges arriving at it, a sum of ones scattered by the
  edge rows), and the mean aggregation of the node features: the rows gathered at the edge columns
  (a negative column wrapped by the number of nodes), scattered and summed at the edge rows, times the
  inverse degree of the row.  It also transposes the two weight matrices and lays the bias out as a row.
  Each later stretch aggregates the previous kernel's second output (the rectified features) the same way.
  Here every array that a kernel or the final division reads is named as a function of the twelve arguments,
  boundary by boundary: `inv`, `A0`, `H0`, `R0`, `A1`, `H1`, `R1`, `A2`, `H2`, `out`.
-/
import proofs.«152803_j35510789603342_1_alg».proof.Proof.Gen.KernelIdeal.Frame
import proofs.«152803_j35510789603342_1_alg».proof.Proof.Region0
import proofs.«152803_j35510789603342_1_alg».proof.Proof.Region1
import proofs.«152803_j35510789603342_1_alg».proof.Proof.Region2
import proofs.«152803_j35510789603342_1_alg».proof.Proof.LayerSpec
import Idealize.ShloMosaic.PureOps.Ideal
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-! ## The host's functions -/

/-- `1 / max (deg, 1)` per node: ones scattered and summed at the edge rows, the maximum with one, the quotient. -/
def invDeg (row : (⟨S800000, .i32⟩ : BufTy).Contents (Elt Ideal)) : (⟨S50000, .f32⟩ : BufTy).Contents (Elt Ideal) :=
  Host.divf (F := Ideal) (φ := .f32) (broadcastInDim S50000 ![] bcast_S_S50000 (constant (F := Ideal) S_ .f32 0x3F800000#32))
    (maximumf (F := Ideal) (φ := .f32)
      (Host.scatterAdd (F := Ideal) (φ := .f32) scatter_S50000_S800000x1_S800000_n_0_0_1
        (broadcastInDim S50000 ![] bcast_S_S50000 (constant (F := Ideal) S_ .f32 0x00000000#32))
        (broadcastInDim S800000x1 ![0] bcast_S800000_S800000x1_0 row)
        (broadcastInDim S800000 ![] bcast_S_S800000 (constant (F := Ideal) S_ .f32 0x3F800000#32)))
      (broadcastInDim S50000 ![] bcast_S_S50000 (constant (F := Ideal) S_ .f32 0x3F800000#32)))

/-- The edge columns with a negative one wrapped by the number of nodes, as a column of indices. -/
def wrapCol (col : (⟨S800000, .i32⟩ : BufTy).Contents (Elt Ideal)) : (⟨S800000x1, .i32⟩ : BufTy).Contents (Elt Ideal) :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- The features gathered at the edge columns, scattered and summed at the edge rows. -/
def gatherSum (xin : (⟨S50000x128, .f32⟩ : BufTy).Contents (Elt Ideal)) (row col : (⟨S800000, .i32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (Host.gather gather_S50000x128_S800000x1_S800000x128_1_0_n_n_0_1_1128 xin (wrapCol col))

/-- A per-node value copied along the 128 features. -/
def perNode (v : (⟨S50000, .f32⟩ : BufTy).Contents (Elt Ideal)) : (⟨S50000x128, .f32⟩ : BufTy).Contents (Elt Ideal) :=
  broadcastInDim S50000x128 ![0, 1] bcast_S50000x1_S50000x128_0_1 (broadcastInDim S50000x1 ![0] bcast_S50000_S50000x1_0 v)

/-- The mean aggregation as the kernel program computes it: the gathered sum times the inverse degree. -/
def agg (iv : (⟨S50000, .f32⟩ : BufTy).Contents (Elt Ideal)) (xin : (⟨S50000x128, .f32⟩ : BufTy).Contents (Elt Ideal)) (row col : (⟨S800000, .i32⟩ : BufTy).Contents (Elt Ideal)) :
    (⟨S50000x128, .f32⟩ : BufTy).Contents (Elt Ideal) :=
  mulf (F := Ideal) (φ := .f32) (gatherSum xin row col) (perNode iv)

/-- A weight matrix transposed. -/
def wT (w : (⟨S128x128, .f32⟩ : BufTy).Contents (Elt Ideal)) : (⟨S128x128, .f32⟩ : BufTy).Contents (Elt Ideal) :=
  transpose S128x128 [1, 0] w transposes_S128x128_S128x128_1_0

/-- A bias laid out as a row. -/
def bRow (b : (⟨S128, .f32⟩ : BufTy).Contents (Elt Ideal)) : (⟨S1x128, .f32⟩ : BufTy).Contents (Elt Ideal) :=
  fun i => shapeCast S1x128 b shapeCasts_S128_S1x128 i

/-- The all-zero residual of the first layer. -/
def zeros : (⟨S50000x128, .f32⟩ : BufTy).Contents (Elt Ideal) :=
  broadcastInDim S50000x128 ![] bcast_S_S50000x128 (constant (F := Ideal) S_ .f32 0x00000000#32)

/-- The all-one divisor of the last line. -/
def ones : (⟨S50000x128, .f32⟩ : BufTy).Contents (Elt Ideal) :=
  broadcastInDim S50000x128 ![] bcast_S_S50000x128 (constant (F := Ideal) S_ .f32 0x3F800000#32)

/-! ## The arrays of the run, as functions of the arguments -/

variable (m : (ℓ : Loc nD τ sig) → Buf (Elt Ideal) ℓ) (ρ : Dev nD → PrngReg)

def inv (c : Dev nD) : (⟨S50000, .f32⟩ : BufTy).Contents (Elt Ideal) := invDeg (m ((c : Thread nD τ).loc main_arg1))
def A0 (c : Dev nD) : (⟨S50000x128, .f32⟩ : BufTy).Contents (Elt Ideal) := agg (inv m c) (m ((c : Thread nD τ).loc main_arg0)) (m ((c : Thread nD τ).loc main_arg1)) (m ((c : Thread nD τ).loc main_arg2))
def H0 (c : Dev nD) : S50000x128.Idx → EReal :=
  Cert.Sage.dense (A0 m c) (m ((c : Thread nD τ).loc main_arg0)) (wT (m ((c : Thread nD τ).loc main_arg3))) (wT (m ((c : Thread nD τ).loc main_arg4))) (bRow (m ((c : Thread nD τ).loc main_arg5))) zeros
def R0 (c : Dev nD) : S50000x128.Idx → EReal := Cert.Sage.relu (H0 m c)
def A1 (c : Dev nD) : (⟨S50000x128, .f32⟩ : BufTy).Contents (Elt Ideal) := agg (inv m c) (R0 m c) (m ((c : Thread nD τ).loc main_arg1)) (m ((c : Thread nD τ).loc main_arg2))
def H1 (c : Dev nD) : S50000x128.Idx → EReal :=
  Cert.Sage.dense (A1 m c) (R0 m c) (wT (m ((c : Thread nD τ).loc main_arg6))) (wT (m ((c : Thread nD τ).loc main_arg7))) (bRow (m ((c : Thread nD τ).loc main_arg8))) (H0 m c)
def R1 (c : Dev nD) : S50000x128.Idx → EReal := Cert.Sage.relu (H1 m c)
def A2 (c : Dev nD) : (⟨S50000x128, .f32⟩ : BufTy).Contents (Elt Ideal) := agg (inv m c) (R1 m c) (m ((c : Thread nD τ).loc main_arg1)) (m ((c : Thread nD τ).loc main_arg2))
def H2 (c : Dev nD) : S50000x128.Idx → EReal :=
  Cert.Sage.dense (A2 m c) (R1 m c) (wT (m ((c : Thread nD τ).loc main_arg9))) (wT (m ((c : Thread nD τ).loc main_arg10))) (bRow (m ((c : Thread nD τ).loc main_arg11))) (H1 m c)
/-- The program's result. -/
def out (c : Dev nD) : (⟨S50000x128, .f32⟩ : BufTy).Contents (Elt Ideal) := Host.divf (F := Ideal) (φ := .f32) (H2 m c) ones

/-! ## Boundary 1: after the first stretch -/

theorem W1_arg0 (c : Dev nD) : W1 m ρ c (Proc.devRef .tc main_arg0) = (m ((c : Thread nD τ).loc main_arg0)) := by
  show StableHlo.after hostOps0 _ _ = _
  after_results_simp
  all_goals rfl
theorem W1_arg1 (c : Dev nD) : W1 m ρ c (Proc.devRef .tc main_arg1) = (m ((c : Thread nD τ).loc main_arg1)) := by
  show StableHlo.after hostOps0 _ _ = _
  after_results_simp
  all_goals rfl
theorem W1_arg2 (c : Dev nD) : W1 m ρ c (Proc.devRef .tc main_arg2) = (m ((c : Thread nD τ).loc main_arg2)) := by
  show StableHlo.after hostOps0 _ _ = _
  after_results_simp
  all_goals rfl
theorem W1_arg3 (c : Dev nD) : W1 m ρ c (Proc.devRef .tc main_arg3) = (m ((c : Thread nD τ).loc main_arg3)) := by
  show StableHlo.after hostOps0 _ _ = _
  after_results_simp
  all_goals rfl
theorem W1_arg4 (c : Dev nD) : W1 m ρ c (Proc.devRef .tc main_arg4) = (m ((c : Thread nD τ).loc main_arg4)) := by
  show StableHlo.after hostOps0 _ _ = _
  after_results_simp
  all_goals rfl
theorem W1_arg5 (c : Dev nD) : W1 m ρ c (Proc.devRef .tc main_arg5) = (m ((c : Thread nD τ).loc main_arg5)) := by
  show StableHlo.after hostOps0 _ _ = _
  after_results_simp
  all_goals rfl
theorem W1_arg6 (c : Dev nD) : W1 m ρ c (Proc.devRef .tc main_arg6) = (m ((c : Thread nD τ).loc main_arg6)) := by
  show StableHlo.after hostOps0 _ _ = _
  after_results_simp
  all_goals rfl
theorem W1_arg7 (c : Dev nD) : W1 m ρ c (Proc.devRef .tc main_arg7) = (m ((c : Thread nD τ).loc main_arg7)) := by
  show StableHlo.after hostOps0 _ _ = _
  after_results_simp
  all_goals rfl
theorem W1_arg8 (c : Dev nD) : W1 m ρ c (Proc.devRef .tc main_arg8) = (m ((c : Thread nD τ).loc main_arg8)) := by
  show StableHlo.after hostOps0 _ _ = _
  after_results_simp
  all_goals rfl
theorem W1_arg9 (c : Dev nD) : W1 m ρ c (Proc.devRef .tc main_arg9) = (m ((c : Thread nD τ).loc main_arg9)) := by
  show StableHlo.after hostOps0 _ _ = _
  after_results_simp
  all_goals rfl
theorem W1_arg10 (c : Dev nD) : W1 m ρ c (Proc.devRef .tc main_arg10) = (m ((c : Thread nD τ).loc main_arg10)) := by
  show StableHlo.after hostOps0 _ _ = _
  after_results_simp
  all_goals rfl
theorem W1_arg11 (c : Dev nD) : W1 m ρ c (Proc.devRef .tc main_arg11) = (m ((c : Thread nD τ).loc main_arg11)) := by
  show StableHlo.after hostOps0 _ _ = _
  after_results_simp
  all_goals rfl
theorem W1_v7 (c : Dev nD) : W1 m ρ c (Proc.devRef .tc main_v7) = inv m c := by
  show StableHlo.after hostOps0 _ _ = _
  after_results_simp
  all_goals rfl
theorem W1_v21 (c : Dev nD) : W1 m ρ c (Proc.devRef .tc main_v21) = A0 m c := by
  show StableHlo.after hostOps0 _ _ = _
  after_results_simp
  all_goals rfl
theorem W1_v22 (c : Dev nD) : W1 m ρ c (Proc.devRef .tc main_v22) = wT (m ((c : Thread nD τ).loc main_arg3)) := by
  show StableHlo.after hostOps0 _ _ = _
  after_results_simp
  all_goals rfl
theorem W1_v23 (c : Dev nD) : W1 m ρ c (Proc.devRef .tc main_v23) = wT (m ((c : Thread nD τ).loc main_arg4)) := by
  show StableHlo.after hostOps0 _ _ = _
  after_results_simp
  all_goals rfl
theorem W1_v24 (c : Dev nD) : W1 m ρ c (Proc.devRef .tc main_v24) = bRow (m ((c : Thread nD τ).loc main_arg5)) := by
  show StableHlo.after hostOps0 _ _ = _
  after_results_simp
  all_goals rfl
theorem W1_v8 (c : Dev nD) : W1 m ρ c (Proc.devRef .tc main_v8) = zeros := by
  show StableHlo.after hostOps0 _ _ = _
  after_results_simp
  all_goals rfl

/-- The first kernel's output function at the entry arrays is `H0`. -/
theorem H_region0 (c : Dev nD) : Region0.H (V1 m ρ) c = H0 m c := by
  show Cert.Sage.dense (W1 m ρ c (Proc.devRef .tc main_v21)) (W1 m ρ c (Proc.devRef .tc main_arg0)) (W1 m ρ c (Proc.devRef .tc main_v22))
    (W1 m ρ c (Proc.devRef .tc main_v23)) (W1 m ρ c (Proc.devRef .tc main_v24)) (W1 m ρ c (Proc.devRef .tc main_v8)) = _
  rw [W1_v21, W1_arg0, W1_v22, W1_v23, W1_v24, W1_v8]
  rfl

/-! ## Boundary 2: after the first kernel -/

theorem W2_v25_0 (c : Dev nD) : W2 m ρ c (Proc.devRef .tc main_v25_0) = H0 m c :=
  (W2_arr m ρ c 6).trans ((Region0.arr6 (V1 m ρ) c).trans (H_region0 m ρ c))
theorem W2_v25_1 (c : Dev nD) : W2 m ρ c (Proc.devRef .tc main_v25_1) = R0 m c :=
  (W2_arr m ρ c 7).trans ((Region0.arr7 (V1 m ρ) c).trans (congrArg Cert.Sage.relu (H_region0 m ρ c)))
theorem W2_v7 (c : Dev nD) : W2 m ρ c (Proc.devRef .tc main_v7) = inv m c :=
  (W2_of_ne m ρ c main_v7 (by decide)).trans (W1_v7 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)

/-! ## Boundary 3: after the second stretch -/

theorem W3_arg1 (c : Dev nD) : W3 m ρ c (Proc.devRef .tc main_arg1) = (m ((c : Thread nD τ).loc main_arg1)) := by
  show StableHlo.after hostOps1 _ _ = _
  after_results_simp
  rw [W2_arg1]
  all_goals rfl
theorem W3_arg2 (c : Dev nD) : W3 m ρ c (Proc.devRef .tc main_arg2) = (m ((c : Thread nD τ).loc main_arg2)) := by
  show StableHlo.after hostOps1 _ _ = _
  after_results_simp
  rw [W2_arg2]
  all_goals rfl
theorem W3_arg9 (c : Dev nD) : W3 m ρ c (Proc.devRef .tc main_arg9) = (m ((c : Thread nD τ).loc main_arg9)) := by
  show StableHlo.after hostOps1 _ _ = _
  after_results_simp
  rw [W2_arg9]
  all_goals rfl
theorem W3_arg10 (c : Dev nD) : W3 m ρ c (Proc.devRef .tc main_arg10) = (m ((c : Thread nD τ).loc main_arg10)) := by
  show StableHlo.after hostOps1 _ _ = _
  after_results_simp
  rw [W2_arg10]
  all_goals rfl
theorem W3_arg11 (c : Dev nD) : W3 m ρ c (Proc.devRef .tc main_arg11) = (m ((c : Thread nD τ).loc main_arg11)) := by
  show StableHlo.after hostOps1 _ _ = _
  after_results_simp
  rw [W2_arg11]
  all_goals rfl
theorem W3_v7 (c : Dev nD) : W3 m ρ c (Proc.devRef .tc main_v7) = inv m c := by
  show StableHlo.after hostOps1 _ _ = _
  after_results_simp
  rw [W2_v7]
  all_goals rfl
theorem W3_v38 (c : Dev nD) : W3 m ρ c (Proc.devRef .tc main_v38) = A1 m c := by
  show StableHlo.after hostOps1 _ _ = _
  after_results_simp
  rw [W2_v7, W2_v25_1, W2_arg1, W2_arg2]
  all_goals rfl
theorem W3_v25_1 (c : Dev nD) : W3 m ρ c (Proc.devRef .tc main_v25_1) = R0 m c := by
  show StableHlo.after hostOps1 _ _ = _
  after_results_simp
  rw [W2_v25_1]
  all_goals rfl
theorem W3_v25_0 (c : Dev nD) : W3 m ρ c (Proc.devRef .tc main_v25_0) = H0 m c := by
  show StableHlo.after hostOps1 _ _ = _
  after_results_simp
  rw [W2_v25_0]
  all_goals rfl
theorem W3_v39 (c : Dev nD) : W3 m ρ c (Proc.devRef .tc main_v39) = wT (m ((c : Thread nD τ).loc main_arg6)) := by
  show StableHlo.after hostOps1 _ _ = _
  after_results_simp
  rw [W2_arg6]
  all_goals rfl
theorem W3_v40 (c : Dev nD) : W3 m ρ c (Proc.devRef .tc main_v40) = wT (m ((c : Thread nD τ).loc main_arg7)) := by
  show StableHlo.after hostOps1 _ _ = _
  after_results_simp
  rw [W2_arg7]
  all_goals rfl
theorem W3_v41 (c : Dev nD) : W3 m ρ c (Proc.devRef .tc main_v41) = bRow (m ((c : Thread nD τ).loc main_arg8)) := by
  show StableHlo.after hostOps1 _ _ = _
  after_results_simp
  rw [W2_arg8]
  all_goals rfl

/-- The second kernel's output function at the entry arrays is `H1`. -/
theorem H_region1 (c : Dev nD) : Region1.H (V3 m ρ) c = H1 m c := by
  show Cert.Sage.dense (W3 m ρ c (Proc.devRef .tc main_v38)) (W3 m ρ c (Proc.devRef .tc main_v25_1)) (W3 m ρ c (Proc.devRef .tc main_v39))
    (W3 m ρ c (Proc.devRef .tc main_v40)) (W3 m ρ c (Proc.devRef .tc main_v41)) (W3 m ρ c (Proc.devRef .tc main_v25_0)) = _
  rw [W3_v38, W3_v25_1, W3_v39, W3_v40, W3_v41, W3_v25_0]
  rfl

/-! ## Boundary 4: after the second kernel -/

theorem W4_v42_0 (c : Dev nD) : W4 m ρ c (Proc.devRef .tc main_v42_0) = H1 m c :=
  (W4_arr m ρ c 6).trans ((Region1.arr6 (V3 m ρ) c).trans (H_region1 m ρ c))
theorem W4_v42_1 (c : Dev nD) : W4 m ρ c (Proc.devRef .tc main_v42_1) = R1 m c :=
  (W4_arr m ρ c 7).trans ((Region1.arr7 (V3 m ρ) c).trans (congrArg Cert.Sage.relu (H_region1 m ρ c)))
theorem W4_v7 (c : Dev nD) : W4 m ρ c (Proc.devRef .tc main_v7) = inv m c :=
  (W4_of_ne m ρ c main_v7 (by decide)).trans (W3_v7 m ρ c)
theorem W4_arg1 (c : Dev nD) : W4 m ρ c (Proc.devRef .tc main_arg1) = (m ((c : Thread nD τ).loc main_arg1)) :=
  (W4_of_ne m ρ c main_arg1 (by decide)).trans (W3_arg1 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)

/-! ## Boundary 5: after the third stretch -/

theorem W5_v55 (c : Dev nD) : W5 m ρ c (Proc.devRef .tc main_v55) = A2 m c := by
  show StableHlo.after hostOps2 _ _ = _
  after_results_simp
  rw [W4_v7, W4_v42_1, W4_arg1, W4_arg2]
  all_goals rfl
theorem W5_v42_1 (c : Dev nD) : W5 m ρ c (Proc.devRef .tc main_v42_1) = R1 m c := by
  show StableHlo.after hostOps2 _ _ = _
  after_results_simp
  rw [W4_v42_1]
  all_goals rfl
theorem W5_v42_0 (c : Dev nD) : W5 m ρ c (Proc.devRef .tc main_v42_0) = H1 m c := by
  show StableHlo.after hostOps2 _ _ = _
  after_results_simp
  rw [W4_v42_0]
  all_goals rfl
theorem W5_v56 (c : Dev nD) : W5 m ρ c (Proc.devRef .tc main_v56) = wT (m ((c : Thread nD τ).loc main_arg9)) := by
  show StableHlo.after hostOps2 _ _ = _
  after_results_simp
  rw [W4_arg9]
  all_goals rfl
theorem W5_v57 (c : Dev nD) : W5 m ρ c (Proc.devRef .tc main_v57) = wT (m ((c : Thread nD τ).loc main_arg10)) := by
  show StableHlo.after hostOps2 _ _ = _
  after_results_simp
  rw [W4_arg10]
  all_goals rfl
theorem W5_v58 (c : Dev nD) : W5 m ρ c (Proc.devRef .tc main_v58) = bRow (m ((c : Thread nD τ).loc main_arg11)) := by
  show StableHlo.after hostOps2 _ _ = _
  after_results_simp
  rw [W4_arg11]
  all_goals rfl

/-- The third kernel's output function at the entry arrays is `H2`. -/
theorem H_region2 (c : Dev nD) : Region2.H (V5 m ρ) c = H2 m c := by
  show Cert.Sage.dense (W5 m ρ c (Proc.devRef .tc main_v55)) (W5 m ρ c (Proc.devRef .tc main_v42_1)) (W5 m ρ c (Proc.devRef .tc main_v56))
    (W5 m ρ c (Proc.devRef .tc main_v57)) (W5 m ρ c (Proc.devRef .tc main_v58)) (W5 m ρ c (Proc.devRef .tc main_v42_0)) = _
  rw [W5_v55, W5_v42_1, W5_v56, W5_v57, W5_v58, W5_v42_0]
  rfl

/-! ## Boundaries 6 and 7: after the third kernel, and the last line -/

theorem W6_v59_0 (c : Dev nD) : W6 m ρ c (Proc.devRef .tc main_v59_0) = H2 m c :=
  (W6_arr m ρ c 6).trans ((Region2.arr6 (V5 m ρ) c).trans (H_region2 m ρ c))

/-- The result array after the whole run is `out` of the arguments. -/
theorem W7_v61 (c : Dev nD) : W7 m ρ c (Proc.devRef .tc main_v61) = out m c := by
  show StableHlo.after hostOps3 _ _ = _
  after_results_simp
  rw [W6_v59_0]
  all_goals rfl

end Cert.KernelIdeal.Stages

end
-- ==== Proof.LayerLaws.lean ====
/-
  Layout steps of the layer, read at an index, and the one law that joins the two programs.

  A per-node value copied along the features is read at `(r, c)` as the value of node `r`; a bias copied
  down the nodes — whether it was first made a row by a broadcast or by a reshape — is read at `(r, c)` as
  the bias entry `c`.  The law: the mean is the gathered sum TIMES `1 / max (deg, 1)` in one program and
  the gathered sum DIVIDED BY `max (deg, 1)` in the other; the divisor is at least one, hence not zero, and
  off zero a quotient is the product with the inverse at every extended real, so the two agree with no
  assumption on the sum.
-/
import proofs.«152803_j35510789603342_1_alg».proof.Proof.LayerSpec
import Idealize.ShloMosaic.Lib.Pipeline.Value

noncomputable section

open scoped BigOperators

namespace Cert.Sage

open Idealize.ShloMosaic Idealize.ShloMosaic.ValueIdx

/-- A value per node. -/
abbrev SV : Shape := ⟨1, ![50000]⟩
/-- The same as a column. -/
abbrev SC : Shape := ⟨2, ![50000, 1]⟩
/-- A bias. -/
abbrev SD : Shape := ⟨1, ![128]⟩

/-- A bias as a row: entry `c` at `(0, c)`. -/
def row (b : SD.Idx → EReal) : SB.Idx → EReal := fun j => b (ix1 (j 1))

/-- A per-node value made a column and copied along the features, read at `(r, c)`: the value of node `r`. -/
theorem perNode_apply {α : Type} (h1 : SV.BroadcastsInDim SC ![0]) (h2 : SC.BroadcastsInDim SN ![0, 1])
    (v : SV.Idx → α) (i : SN.Idx) :
    broadcastInDim SN ![0, 1] h2 (broadcastInDim SC ![0] h1 v) i = v (ix1 (i 0)) := by
  rw [broadcastInDim_apply _ h2 _ i (ix2 (i 0) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])]
  exact broadcastInDim_apply _ h1 v _ (ix1 (i 0)) (fun a => match a with
      | ⟨0, _⟩ => by show (i 0).val = if (50000 : Nat) = 1 then 0 else (i 0).val; rw [if_neg (by decide)])

/-- A bias made a row by a broadcast and copied down the nodes, read at `(r, c)`: the bias entry `c`. -/
theorem biasAll_apply {α : Type} (h1 : SD.BroadcastsInDim SB ![1]) (h2 : SB.BroadcastsInDim SN ![0, 1])
    (b : SD.Idx → α) (i : SN.Idx) :
    broadcastInDim SN ![0, 1] h2 (broadcastInDim SB ![1] h1 b) i = b (ix1 (i 1)) := by
  rw [broadcastInDim_apply _ h2 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]
  exact broadcastInDim_apply _ h1 b _ (ix1 (i 1)) (fun a => match a with
      | ⟨0, _⟩ => by show (i 1).val = if (128 : Nat) = 1 then 0 else (i 1).val; rw [if_neg (by decide)])

/-- A bias reshaped to a row is the row of its entries. -/
theorem biasRow_eq (h : SD.ShapeCasts SB) (b : SD.Idx → EReal) :
    (fun j => shapeCast SB b h j) = row b := by
  funext j
  have e := shapeCast_addUnit_apply ![128] b h j
  refine e.trans (congrArg b ?_)
  funext a
  match a with
  | ⟨0, _⟩ => rfl

/-- The mean aggregation both ways, at one node: the sum times `1 / max (deg, 1)` is the sum divided by
    `max (deg, 1)`. -/
theorem mean_mul_eq_div (s deg : EReal) : s * Ideal.div 1 (max deg 1) = Ideal.div s (max deg 1) :=
  mul_one_div s (max deg 1) (max_one_ne_zero deg)

end Cert.Sage

end
-- ==== Proof.RefStages.lean ====
/-
  The reference program, layer by layer.

  Each SAGE layer of the reference gathers the features at the edge columns, scatters and sums them at the
  edge rows, divides by `max (deg, 1)` of the row, and adds the two products with the transposed weights and
  the bias; from the second layer on it rectifies its input first and adds the previous layer's output.  Here
  the stages the generated reading names one operation at a time are gathered into the three layers, each
  stated through the layer function on the extended reals (`Cert.Sage.dense0` / `dense`), with the host's
  matrix products read as sums over the 128 input features.
-/
import proofs.«152803_j35510789603342_1_alg».proof.Proof.Gen.ReferenceIdeal.Read
import proofs.«152803_j35510789603342_1_alg».proof.Proof.LayerSpec
import proofs.«152803_j35510789603342_1_alg».proof.Proof.LayerLaws
import proofs.«152803_j35510789603342_1_alg».proof.Proof.LibDotRows
import Idealize.ShloMosaic.PureOps.Ideal
import Idealize.ShloMosaic.Lib.IdealHost

set_option maxRecDepth 16384

noncomputable section

open scoped BigOperators

namespace Cert.ReferenceIdeal.Chain

open Cert.ReferenceIdeal Cert.ReferenceIdeal.Gen Cert.ReferenceIdeal.Read
open Idealize.ShloMosaic Idealize.ShloMosaic.TcCoe Idealize.ShloMosaic.ValueIdx

/-! ## The reference's functions -/

/-- `max (deg, 1)` per node. -/
def degMax (row : (⟨S800000, .i32⟩ : BufTy).Contents (Elt Ideal)) : (⟨S50000, .f32⟩ : BufTy).Contents (Elt Ideal) :=
  maximumf (F := Ideal) (φ := .f32)
    (Host.scatterAdd (F := Ideal) (φ := .f32) scatter_S50000_S800000x1_S800000_n_0_0_1
      (broadcastInDim S50000 ![] bcast_S_S50000 (constant (F := Ideal) S_ .f32 0x00000000#32))
      (broadcastInDim S800000x1 ![0] bcast_S800000_S800000x1_0 row)
      (broadcastInDim S800000 ![] bcast_S_S800000 (constant (F := Ideal) S_ .f32 0x3F800000#32)))
    (broadcastInDim S50000 ![] bcast_S_S50000 (constant (F := Ideal) S_ .f32 0x3F800000#32))

/-- The edge columns with a negative one wrapped by the number of nodes, as a column of indices. -/
def wrapCol (col : (⟨S800000, .i32⟩ : BufTy).Contents (Elt Ideal)) : (⟨S800000x1, .i32⟩ : BufTy).Contents (Elt Ideal) :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- The features gathered at the edge columns, scattered and summed at the edge rows. -/
def gatherSum (xin : (⟨S50000x128, .f32⟩ : BufTy).Contents (Elt Ideal)) (row col : (⟨S800000, .i32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (Host.gather gather_S50000x128_S800000x1_S800000x128_1_0_n_n_0_1_1128 xin (wrapCol col))

/-- A per-node value copied along the 128 features. -/
def perNode (v : (⟨S50000, .f32⟩ : BufTy).Contents (Elt Ideal)) : (⟨S50000x128, .f32⟩ : BufTy).Contents (Elt Ideal) :=
  broadcastInDim S50000x128 ![0, 1] bcast_S50000x1_S50000x128_0_1 (broadcastInDim S50000x1 ![0] bcast_S50000_S50000x1_0 v)

/-- The mean aggregation as the reference computes it: the gathered sum divided by `max (deg, 1)`. -/
def agg (xin : (⟨S50000x128, .f32⟩ : BufTy).Contents (Elt Ideal)) (row col : (⟨S800000, .i32⟩ : BufTy).Contents (Elt Ideal)) : (⟨S50000x128, .f32⟩ : BufTy).Contents (Elt Ideal) :=
  Host.divf (F := Ideal) (φ := .f32) (gatherSum xin row col) (perNode (degMax row))

/-- A weight matrix transposed. -/
def wT (w : (⟨S128x128, .f32⟩ : BufTy).Contents (Elt Ideal)) : (⟨S128x128, .f32⟩ : BufTy).Contents (Elt Ideal) :=
  transpose S128x128 [1, 0] w transposes_S128x128_S128x128_1_0

/-- The dense half of a layer as the reference's operations: two products, their sum, plus the bias copied down. -/
def denseOps (A X : (⟨S50000x128, .f32⟩ : BufTy).Contents (Elt Ideal)) (Wl Wr : (⟨S128x128, .f32⟩ : BufTy).Contents (Elt Ideal)) (b : (⟨S128, .f32⟩ : BufTy).Contents (Elt Ideal)) :
    (⟨S50000x128, .f32⟩ : BufTy).Contents (Elt Ideal) :=
  addf (F := Ideal) (φ := .f32)
    (addf (F := Ideal) (φ := .f32) (Host.dotGeneral (F := Ideal) (φ₁ := .f32) (φ₂ := .f32) dot_S50000x128_S128x128_S50000x128_1_0_0_1_n_n none A (wT Wl))
      (Host.dotGeneral (F := Ideal) (φ₁ := .f32) (φ₂ := .f32) dot_S50000x128_S128x128_S50000x128_1_0_0_1_n_n none X (wT Wr)))
    (broadcastInDim S50000x128 ![0, 1] bcast_S1x128_S50000x128_0_1 (broadcastInDim S1x128 ![1] bcast_S128_S1x128_1 b))

/-- The maximum with the all-zero array. -/
def reluOps (H : (⟨S50000x128, .f32⟩ : BufTy).Contents (Elt Ideal)) : (⟨S50000x128, .f32⟩ : BufTy).Contents (Elt Ideal) :=
  maximumf (F := Ideal) (φ := .f32) H (broadcastInDim S50000x128 ![] bcast_S_S50000x128 (constant (F := Ideal) S_ .f32 0x00000000#32))

/-! ## The operations as mathematics -/

/-- The reference's dense half is the layer function without a residual. -/
theorem denseOps_eq (A X : (⟨S50000x128, .f32⟩ : BufTy).Contents (Elt Ideal)) (Wl Wr : (⟨S128x128, .f32⟩ : BufTy).Contents (Elt Ideal)) (b : (⟨S128, .f32⟩ : BufTy).Contents (Elt Ideal)) :
    denseOps A X Wl Wr b = Cert.Sage.dense0 A X (wT Wl) (wT Wr) (Cert.Sage.row b) := by
  funext i
  obtain ⟨r, q, rfl⟩ : ∃ (r : Fin 50000) (q : Fin 128), i = ix2 r q := ⟨i 0, i 1, eq_ix2 i⟩
  have hA := dotGeneral_rows (φ₁ := .f32) (φ₂ := .f32) dot_S50000x128_S128x128_S50000x128_1_0_0_1_n_n none .single rfl rfl (fun _ _ => rfl)
    (fun _ _ => rfl) (fun _ _ => rfl) (fun _ _ => rfl) A (wT Wl) r q
  have hX := dotGeneral_rows (φ₁ := .f32) (φ₂ := .f32) dot_S50000x128_S128x128_S50000x128_1_0_0_1_n_n none .single rfl rfl (fun _ _ => rfl)
    (fun _ _ => rfl) (fun _ _ => rfl) (fun _ _ => rfl) X (wT Wr) r q
  have hb := Cert.Sage.biasAll_apply bcast_S128_S1x128_1 bcast_S1x128_S50000x128_0_1 b (ix2 r q)
  exact congrArg₂ (· + ·) (congrArg₂ (· + ·) hA hX) hb

/-- The reference's rectifier is the maximum with zero. -/
theorem reluOps_eq (H : (⟨S50000x128, .f32⟩ : BufTy).Contents (Elt Ideal)) : reluOps H = Cert.Sage.relu H := by
  funext i
  unfold reluOps Cert.Sage.relu
  rw [maximumf_apply]
  exact congrArg (max (H i)) Ideal.ofBits_zero_f32

/-! ## The three layers -/

/-- Layer 0's output. -/
def L0 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) : S50000x128.Idx → EReal :=
  Cert.Sage.dense0 (agg x0 x1 x2) x0 (wT x3) (wT x4) (Cert.Sage.row x5)
/-- Layer 1's output: on the rectified layer 0, plus layer 0. -/
def L1 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) : S50000x128.Idx → EReal :=
  Cert.Sage.dense (agg (Cert.Sage.relu (L0 x0 x1 x2 x3 x4 x5)) x1 x2) (Cert.Sage.relu (L0 x0 x1 x2 x3 x4 x5)) (wT x6) (wT x7) (Cert.Sage.row x8) (L0 x0 x1 x2 x3 x4 x5)
/-- Layer 2's output: on the rectified layer 1, plus layer 1. -/
def L2 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) : S50000x128.Idx → EReal :=
  Cert.Sage.dense (agg (Cert.Sage.relu (L1 x0 x1 x2 x3 x4 x5 x6 x7 x8)) x1 x2) (Cert.Sage.relu (L1 x0 x1 x2 x3 x4 x5 x6 x7 x8)) (wT x9) (wT x10) (Cert.Sage.row x11) (L1 x0 x1 x2 x3 x4 x5 x6 x7 x8)

/-- The reference's first aggregation, named. -/
theorem v18_eq (x0 : (⟨S50000x128, .f32⟩ : BufTy).Contents (Elt Ideal)) (x1 x2 : (⟨S800000, .i32⟩ : BufTy).Contents (Elt Ideal)) : val_main_v18 (F := Ideal) x0 x1 x2 = agg x0 x1 x2 := by
  simp only [val_main_v18, val_main_v9, val_main_v7, val_main_cst, val_main_v8, val_main_v6, val_main_v5, val_main_v4, val_main_v1, val_main_v0, val_main_c, val_main_v3, val_main_v2, val_main_c_0, val_main_v17, val_main_v16, val_main_v15, val_main_v13, val_main_v11, val_main_cst_2, val_main_v12, val_main_v10, val_main_cst_1, val_main_v14, val_main_cst_3]
  unfold agg gatherSum wrapCol perNode degMax
  rfl

theorem v26_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) : val_main_v26 (F := Ideal) x0 x1 x2 x3 x4 x5 = L0 x0 x1 x2 x3 x4 x5 := by
  simp only [val_main_v26, val_main_v23, val_main_v20, val_main_v19, val_main_v22, val_main_v21, val_main_v25, val_main_v24]
  rw [v18_eq]
  exact denseOps_eq (agg x0 x1 x2) x0 x3 x4 x5

theorem v27_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) : val_main_v27 (F := Ideal) x0 x1 x2 x3 x4 x5 = Cert.Sage.relu (L0 x0 x1 x2 x3 x4 x5) := by
  simp only [val_main_v27, val_main_call0_v0, val_main_call0_cst]
  rw [v26_eq]
  exact reluOps_eq (L0 x0 x1 x2 x3 x4 x5)

/-- The second aggregation: of the rectified first layer. -/
theorem v46_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) : val_main_v46 (F := Ideal) x0 x1 x2 x3 x4 x5 = agg (val_main_v27 (F := Ideal) x0 x1 x2 x3 x4 x5) x1 x2 := by
  simp only [val_main_v46, val_main_v37, val_main_v35, val_main_cst_6, val_main_v36, val_main_v34, val_main_v33, val_main_v32, val_main_v29, val_main_v28, val_main_c_4, val_main_v31, val_main_v30, val_main_c_5, val_main_v45, val_main_v44, val_main_v43, val_main_v41, val_main_v39, val_main_cst_8, val_main_v40, val_main_v38, val_main_cst_7, val_main_v42, val_main_cst_9]
  unfold agg gatherSum wrapCol perNode degMax
  rfl

theorem v55_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) : val_main_v55 (F := Ideal) x0 x1 x2 x3 x4 x5 x6 x7 x8 = L1 x0 x1 x2 x3 x4 x5 x6 x7 x8 := by
  simp only [val_main_v55, val_main_v54, val_main_v51, val_main_v48, val_main_v47, val_main_v50, val_main_v49, val_main_v53, val_main_v52]
  rw [v46_eq, v27_eq, v26_eq]
  show addf (F := Ideal) (φ := .f32) (denseOps (agg (Cert.Sage.relu (L0 x0 x1 x2 x3 x4 x5)) x1 x2) (Cert.Sage.relu (L0 x0 x1 x2 x3 x4 x5)) x6 x7 x8) (L0 x0 x1 x2 x3 x4 x5) = _
  rw [denseOps_eq]
  rfl

theorem v56_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) : val_main_v56 (F := Ideal) x0 x1 x2 x3 x4 x5 x6 x7 x8 = Cert.Sage.relu (L1 x0 x1 x2 x3 x4 x5 x6 x7 x8) := by
  simp only [val_main_v56, val_main_call1_v0, val_main_call1_cst]
  rw [v55_eq]
  exact reluOps_eq (L1 x0 x1 x2 x3 x4 x5 x6 x7 x8)

/-- The third aggregation: of the rectified second layer. -/
theorem v75_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) : val_main_v75 (F := Ideal) x0 x1 x2 x3 x4 x5 x6 x7 x8 = agg (val_main_v56 (F := Ideal) x0 x1 x2 x3 x4 x5 x6 x7 x8) x1 x2 := by
  simp only [val_main_v75, val_main_v66, val_main_v64, val_main_cst_12, val_main_v65, val_main_v63, val_main_v62, val_main_v61, val_main_v58, val_main_v57, val_main_c_10, val_main_v60, val_main_v59, val_main_c_11, val_main_v74, val_main_v73, val_main_v72, val_main_v70, val_main_v68, val_main_cst_14, val_main_v69, val_main_v67, val_main_cst_13, val_main_v71, val_main_cst_15]
  unfold agg gatherSum wrapCol perNode degMax
  rfl

theorem v84_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) : val_main_v84 (F := Ideal) x0 x1 x2 x3 x4 x5 x6 x7 x8 x9 x10 x11 = L2 x0 x1 x2 x3 x4 x5 x6 x7 x8 x9 x10 x11 := by
  simp only [val_main_v84, val_main_v83, val_main_v80, val_main_v77, val_main_v76, val_main_v79, val_main_v78, val_main_v82, val_main_v81]
  rw [v75_eq, v56_eq, v55_eq]
  show addf (F := Ideal) (φ := .f32) (denseOps (agg (Cert.Sage.relu (L1 x0 x1 x2 x3 x4 x5 x6 x7 x8)) x1 x2) (Cert.Sage.relu (L1 x0 x1 x2 x3 x4 x5 x6 x7 x8)) x9 x10 x11) (L1 x0 x1 x2 x3 x4 x5 x6 x7 x8) = _
  rw [denseOps_eq]
  rfl

/-- The reference's result: layer 2's output divided by the all-one array. -/
theorem v86_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) : val_main_v86 (F := Ideal) x0 x1 x2 x3 x4 x5 x6 x7 x8 x9 x10 x11
    = Host.divf (F := Ideal) (φ := .f32) (L2 x0 x1 x2 x3 x4 x5 x6 x7 x8 x9 x10 x11) (broadcastInDim S50000x128 ![] bcast_S_S50000x128 (constant (F := Ideal) S_ .f32 0x3F800000#32)) := by
  simp only [val_main_v86, val_main_v85, val_main_cst_16]
  rw [v84_eq]

end Cert.ReferenceIdeal.Chain

end
-- ==== Proof.Bridge.lean ====
/-
  The two programs compute one function.

  The kernel program's result is `H2 / 1` with `H0`, `H1`, `H2` the three layers over its own mean
  aggregation (the gathered sum TIMES `1 / max (deg, 1)`), the first with an all-zero residual; the
  reference's is `L2 / 1` with `L0`, `L1`, `L2` the same layers over the gathered sum DIVIDED BY
  `max (deg, 1)`, the first without a residual.  The aggregations agree at every extended real because the
  divisor is never zero; adding the zero residual changes nothing; the bias row is the same row whether it was
  reshaped or broadcast.  So layer by layer the arrays are equal, and so are the results.
-/
import proofs.«152803_j35510789603342_1_alg».proof.Proof.KStages
import proofs.«152803_j35510789603342_1_alg».proof.Proof.RefStages
import proofs.«152803_j35510789603342_1_alg».proof.Proof.LayerLaws
import Idealize.ShloMosaic.Lib.IdealHost

set_option maxRecDepth 16384

noncomputable section

namespace Cert.Proof.Bridge

open Idealize.ShloMosaic Idealize.ShloMosaic.TcCoe Idealize.ShloMosaic.ValueIdx Idealize.SL.Sem

/-- The host's quotient of two arrays at an index is the quotient of the entries. -/
theorem hdivf_apply {s : Shape} (a b : FVec Ideal s .f32) (i : s.Idx) :
    Host.divf (F := Ideal) (φ := .f32) a b i = Ideal.div (a i) (b i) := rfl

/-- A constant copied to every index reads as the constant. -/
theorem bconst_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w := rfl

/-- The gathered sum is one function in the two programs: the same gather and the same scatter. -/
theorem gatherSum_eq (xin : (⟨Cert.Sage.SN, .f32⟩ : BufTy).Contents (Elt Ideal))
    (row col : (⟨(⟨1, ![800000]⟩ : Shape), .i32⟩ : BufTy).Contents (Elt Ideal)) :
    Cert.KernelIdeal.Stages.gatherSum xin row col = Cert.ReferenceIdeal.Chain.gatherSum xin row col := rfl

/-- The mean aggregation of the kernel program is the reference's: at a node of degree `deg`, the gathered sum
    times `1 / max (deg, 1)` is the gathered sum divided by `max (deg, 1)`. -/
theorem agg_eq (xin : (⟨Cert.Sage.SN, .f32⟩ : BufTy).Contents (Elt Ideal))
    (row col : (⟨(⟨1, ![800000]⟩ : Shape), .i32⟩ : BufTy).Contents (Elt Ideal)) :
    Cert.KernelIdeal.Stages.agg (Cert.KernelIdeal.Stages.invDeg row) xin row col = Cert.ReferenceIdeal.Chain.agg xin row col := by
  funext i
  unfold Cert.KernelIdeal.Stages.agg Cert.ReferenceIdeal.Chain.agg Cert.KernelIdeal.Stages.perNode Cert.ReferenceIdeal.Chain.perNode
  rw [mulf_apply, hdivf_apply, Cert.Sage.perNode_apply, Cert.Sage.perNode_apply]
  unfold Cert.KernelIdeal.Stages.invDeg Cert.ReferenceIdeal.Chain.degMax
  rw [hdivf_apply, maximumf_apply, maximumf_apply, bconst_apply, Ideal.ofBits_one_f32, gatherSum_eq]
  exact Cert.Sage.mean_mul_eq_div _ _

/-- The kernel program's bias row is the row of the bias entries. -/
theorem bRow_eq (b : (⟨Cert.Sage.SD, .f32⟩ : BufTy).Contents (Elt Ideal)) : Cert.KernelIdeal.Stages.bRow b = Cert.Sage.row b :=
  Cert.Sage.biasRow_eq _ b

/-- The first layer's residual is zero everywhere. -/
theorem zeros_apply (i : Cert.Sage.SN.Idx) : Cert.KernelIdeal.Stages.zeros i = 0 := by
  show Ideal.ofBits .f32 0x00000000#32 = 0
  exact Ideal.ofBits_zero_f32

variable (m : (ℓ : Loc Cert.KernelIdeal.nD Cert.KernelIdeal.τ Cert.KernelIdeal.sig) → Buf (Elt Ideal) ℓ)

/-- Layer 0 of the two programs. -/
theorem H0_eq (c : Dev Cert.KernelIdeal.nD) : Cert.KernelIdeal.Stages.H0 m c = Cert.ReferenceIdeal.Chain.L0 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  unfold Cert.KernelIdeal.Stages.H0 Cert.KernelIdeal.Stages.A0 Cert.KernelIdeal.Stages.inv Cert.ReferenceIdeal.Chain.L0
  rw [agg_eq, Cert.Sage.dense_zero _ _ _ _ _ _ zeros_apply, bRow_eq]
  rfl

/-- Layer 1 of the two programs. -/
theorem H1_eq (c : Dev Cert.KernelIdeal.nD) : Cert.KernelIdeal.Stages.H1 m c = Cert.ReferenceIdeal.Chain.L1 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold Cert.KernelIdeal.Stages.H1 Cert.KernelIdeal.Stages.A1 Cert.KernelIdeal.Stages.R0 Cert.KernelIdeal.Stages.inv Cert.ReferenceIdeal.Chain.L1
  rw [H0_eq, agg_eq, bRow_eq]
  rfl

/-- Layer 2 of the two programs. -/
theorem H2_eq (c : Dev Cert.KernelIdeal.nD) : Cert.KernelIdeal.Stages.H2 m c = Cert.ReferenceIdeal.Chain.L2 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  unfold Cert.KernelIdeal.Stages.H2 Cert.KernelIdeal.Stages.A2 Cert.KernelIdeal.Stages.R1 Cert.KernelIdeal.Stages.inv Cert.ReferenceIdeal.Chain.L2
  rw [H1_eq, agg_eq, bRow_eq]
  rfl

/-- The kernel program's result is the reference's function of the same arguments. -/
theorem out_eq (c : Dev Cert.KernelIdeal.nD) :
    Cert.KernelIdeal.Stages.out m c = Cert.ReferenceIdeal.Read.val_main_v86 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  rw [Cert.ReferenceIdeal.Chain.v86_eq]
  unfold Cert.KernelIdeal.Stages.out
  rw [H2_eq]
  rfl

end Cert.Proof.Bridge

end
-- ==== Proof.lean ====
/-
  The certificate: a three-layer SAGE network (mean aggregation, residuals) as three dense kernels among host
  gathers and scatters, against its plain reference, over the extended reals.

  Both programs aggregate with the same gathers and scatter-sums; they differ in three places, none of which
  changes a value.  The kernel program multiplies the gathered sum by `1 / max (deg, 1)` where the reference
  divides by `max (deg, 1)`: the divisor is at least one, so never zero, and off zero a quotient IS the product
  with the inverse, at the infinities too.  Its first layer adds an all-zero residual.  And its dense halves
  run on blocks of 2000 nodes, each element the same sum over the 128 input features that the reference's
  whole matrix products denote.  So the three layers agree array by array (Proof/Bridge.lean), and the results,
  both divided by one, are equal.  No law used needs the inputs finite.

  The frames of the two kernel programs and the reference's run are the generated ones; the kernel program's
  run with its result named is Proof/ValueRun.lean, and what each boundary of that run holds is
  Proof/KStages.lean over Proof/Region0–2.lean (the blocks of each kernel assembled into whole arrays).
-/
import proofs.«152803_j35510789603342_1_alg».proof.Defs
import proofs.«152803_j35510789603342_1_alg».proof.Proof.Gen.Kernel
import proofs.«152803_j35510789603342_1_alg».proof.Proof.Gen.Kernel.Skeleton
import proofs.«152803_j35510789603342_1_alg».proof.Proof.Gen.Kernel.Launch
import proofs.«152803_j35510789603342_1_alg».proof.Proof.Gen.Kernel.Points
import proofs.«152803_j35510789603342_1_alg».proof.Proof.Gen.Kernel.Frame
import proofs.«152803_j35510789603342_1_alg».proof.Proof.Gen.KernelIdeal
import proofs.«152803_j35510789603342_1_alg».proof.Proof.Gen.KernelIdeal.Skeleton
import proofs.«152803_j35510789603342_1_alg».proof.Proof.Gen.KernelIdeal.Launch
import proofs.«152803_j35510789603342_1_alg».proof.Proof.Gen.KernelIdeal.Points
import proofs.«152803_j35510789603342_1_alg».proof.Proof.Gen.KernelIdeal.Frame
import proofs.«152803_j35510789603342_1_alg».proof.Proof.Gen.ReferenceIdeal
import proofs.«152803_j35510789603342_1_alg».proof.Proof.Gen.ReferenceIdeal.Run
import proofs.«152803_j35510789603342_1_alg».proof.Proof.Gen.ReferenceIdeal.Read
import proofs.«152803_j35510789603342_1_alg».proof.Proof.Gen.Pre_finite_inputs
import proofs.«152803_j35510789603342_1_alg».proof.Proof.ValueRun
import proofs.«152803_j35510789603342_1_alg».proof.Proof.KStages
import proofs.«152803_j35510789603342_1_alg».proof.Proof.RefStages
import proofs.«152803_j35510789603342_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the kernel program's
    `out` of the arguments: the kernel program by its run read boundary by boundary, the reference because its
    composed term is the same function of the same arguments. -/
theorem algebraic : Cert.algebraic_KernelIdeal_ReferenceIdeal := by
  intro m ρ m' ρ' _ hagree
  refine ⟨fun c => Cert.KernelIdeal.Stages.out m c, ?_, ?_⟩
  · exact (θ_run Cert.KernelIdeal.defs _ _).mono
      (fun r h c => ⟨(h c).1.trans (Cert.KernelIdeal.Stages.W7_v61 m ρ c), (h c).2⟩)
      (Cert.KernelIdeal.RunValue.value_run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v86_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Proof.Bridge.out_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
